-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x128 : Shape := ⟨3, ![16384, 2, 128]⟩
abbrev S128x128x384 : Shape := ⟨3, ![128, 128, 384]⟩
abbrev S384x128 : Shape := ⟨2, ![384, 128]⟩
abbrev S384 : Shape := ⟨1, ![384]⟩
abbrev S_ : Shape := ⟨0, ![]⟩

class Facts : Prop where
  bcast_S_S16384x2x128 : S_.BroadcastsInDim S16384x2x128 (![] : Fin 0 → Fin S16384x2x128.rank)
  reducesTo_S16384x2x128_S_d0_1_2 : S16384x2x128.ReducesTo [0, 1, 2] S_
  h_S_ : 0 < S_.numel
  bcast_S_S128x128x384 : S_.BroadcastsInDim S128x128x384 (![] : Fin 0 → Fin S128x128x384.rank)
  reducesTo_S128x128x384_S_d0_1_2 : S128x128x384.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S16384x2x128 .f32) (main_arg1 : FVec F S128x128x384 .f32) (main_arg2 : FVec F S384x128 .f32) (main_arg3 : FVec F S384x128 .f32) (main_arg4 : FVec F S384 .f32) : IVec S_ 1 :=
  let main_v0 : FVec F S16384x2x128 .f32 := Host.absf main_arg0
  let main_cst : FVec F S_ .f32 := constant S_ .f32 0x7F800000#32
  let main_v1 : FVec F S16384x2x128 .f32 := broadcastInDim S16384x2x128 ![] bcast_S_S16384x2x128 main_cst
  let main_v2 : IVec S16384x2x128 1 := cmpf .olt main_v0 main_v1
  let main_c : IVec S_ 1 := constantI S_ 1 1#1
  let main_v3 : IVec S_ 1 := (fun x v => Host.reduce IntOp.andi x v reducesTo_S16384x2x128_S_d0_1_2 h_S_) main_v2 main_c
  let main_v4 : FVec F S128x128x384 .f32 := Host.absf main_arg1
  let main_cst_0 : FVec F S_ .f32 := constant S_ .f32 0x7F800000#32
  let main_v5 : FVec F S128x128x384 .f32 := broadcastInDim S128x128x384 ![] bcast_S_S128x128x384 main_cst_0
  let main_v6 : IVec S128x128x384 1 := cmpf .olt main_v4 main_v5
  let main_c_1 : IVec S_ 1 := constantI S_ 1 1#1
  let main_v7 : IVec S_ 1 := (fun x v => Host.reduce IntOp.andi x v reducesTo_S128x128x384_S_d0_1_2 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_v13 main_v16
-- ==== Kernel.lean ====
abbrev S16384x2x128 : Shape := ⟨3, ![16384, 2, 128]⟩
abbrev S128x128x384 : Shape := ⟨3, ![128, 128, 384]⟩
abbrev S384x128 : Shape := ⟨2, ![384, 128]⟩
abbrev S384 : Shape := ⟨1, ![384]⟩
abbrev S16384x384 : Shape := ⟨2, ![16384, 384]⟩
abbrev S128x384 : Shape := ⟨2, ![128, 384]⟩
abbrev S1x384 : Shape := ⟨2, ![1, 384]⟩
abbrev S512x2x128 : Shape := ⟨3, ![512, 2, 128]⟩
abbrev S512x384 : Shape := ⟨2, ![512, 384]⟩
abbrev S512x1x128 : Shape := ⟨3, ![512, 1, 128]⟩
abbrev S512x128 : Shape := ⟨2, ![512, 128]⟩
abbrev S512x16 : Shape := ⟨2, ![512, 16]⟩
abbrev S512x16x1 : Shape := ⟨3, ![512, 16, 1]⟩
abbrev S512x16x128 : Shape := ⟨3, ![512, 16, 128]⟩
abbrev S512x2048 : Shape := ⟨2, ![512, 2048]⟩
abbrev S2048x384 : Shape := ⟨2, ![2048, 384]⟩

abbrev nBuf : Space → Nat
  | .hbm => 13
  | .vmem => 8
  | .smem => 0
  | _ => 0

abbrev bufTy : (tb : Table) → Fin (tcTables nBuf tb) → BufTy
  | .hbm, ⟨0, _⟩ => ⟨S16384x2x128, .f32⟩
  | .hbm, ⟨1, _⟩ => ⟨S128x128x384, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S16384x384, .f32⟩
  | .hbm, ⟨6, _⟩ => ⟨S16384x384, .bf16⟩
  | .hbm, ⟨7, _⟩ => ⟨S128x384, .f32⟩
  | .hbm, ⟨8, _⟩ => ⟨S128x384, .bf16⟩
  | .hbm, ⟨9, _⟩ => ⟨S128x384, .f32⟩
  | .hbm, ⟨10, _⟩ => ⟨S128x384, .bf16⟩
  | .hbm, ⟨11, _⟩ => ⟨S1x384, .f32⟩
  | .hbm, ⟨12, _⟩ => ⟨S16384x384, .f32⟩
  | .local _ .vmem, ⟨0, _⟩ => ⟨S512x2x128, .f32⟩
  | .local _ .vmem, ⟨1, _⟩ => ⟨S512x2x128, .f32⟩
  | .local _ .vmem, ⟨2, _⟩ => ⟨S16384x384, .bf16⟩
  | .local _ .vmem, ⟨3, _⟩ => ⟨S128x384, .bf16⟩
  | .local _ .vmem, ⟨4, _⟩ => ⟨S128x384, .bf16⟩
  | .local _ .vmem, ⟨5, _⟩ => ⟨S1x384, .f32⟩
  | .local _ .vmem, ⟨6, _⟩ => ⟨S512x384, .f32⟩
  | .local _ .vmem, ⟨7, _⟩ => ⟨S512x384, .f32⟩
  | _, _ => ⟨S16384x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x128x384_S16384x384 : S128x128x384.ShapeCasts S16384x384
  bitsLt_bf16_f32 : FTy.bits .bf16 < FTy.bits .f32
  transposes_S384x128_S128x384_1_0 : S384x128.Transposes [1, 0] S128x384
  shapeCasts_S384_S1x384 : S384.ShapeCasts S1x384
  inb_S512x2x128_S512x1x128_0_0_0 : ∀ a, (![0, 0, 0] : Fin 3 → Nat) a + S512x1x128.size a ≤ S512x2x128.size a
  h_S512x1x128 : 0 < S512x1x128.numel
  shapeCasts_S512x1x128_S512x128 : S512x1x128.ShapeCasts S512x128
  inb_S512x2x128_S512x1x128_0_1_0 : ∀ a, (![0, 1, 0] : Fin 3 → Nat) a + S512x1x128.size a ≤ S512x2x128.size a
  slices_S512x128_o0_0_S512x16 : S512x128.Slices ![0, 0] S512x16
  shapeCasts_S512x16_S512x16x1 : S512x16.ShapeCasts S512x16x1
  shapeCasts_S512x128_S512x1x128 : S512x128.ShapeCasts S512x1x128
  broadcasts_S512x16x1_S512x16x128 : S512x16x1.Broadcasts S512x16x128
  broadcasts_S512x1x128_S512x16x128 : S512x1x128.Broadcasts S512x16x128
  shapeCasts_S512x16x128_S512x2048 : S512x16x128.ShapeCasts S512x2048
  inb_S16384x384_S2048x384_0_0 : ∀ a, (![0, 0] : Fin 2 → Nat) a + S2048x384.size a ≤ S16384x384.size a
  h_S2048x384 : 0 < S2048x384.numel
  shapeCasts_S2048x384_S2048x384 : S2048x384.ShapeCasts S2048x384
  slices_S512x128_o0_16_S512x16 : S512x128.Slices ![0, 16] S512x16
  inb_S16384x384_S2048x384_2048_0 : ∀ a, (![2048, 0] : Fin 2 → Nat) a + S2048x384.size a ≤ S16384x384.size a
  slices_S512x128_o0_32_S512x16 : S512x128.Slices ![0, 32] S512x16
  inb_S16384x384_S2048x384_4096_0 : ∀ a, (![4096, 0] : Fin 2 → Nat) a + S2048x384.size a ≤ S16384x384.size a
  slices_S512x128_o0_48_S512x16 : S512x128.Slices ![0, 48] S512x16
  inb_S16384x384_S2048x384_6144_0 : ∀ a, (![6144, 0] : Fin 2 → Nat) a + S2048x384.size a ≤ S16384x384.size a
  slices_S512x128_o0_64_S512x16 : S512x128.Slices ![0, 64] S512x16
  inb_S16384x384_S2048x384_8192_0 : ∀ a, (![8192, 0] : Fin 2 → Nat) a + S2048x384.size a ≤ S16384x384.size a
  slices_S512x128_o0_80_S512x16 : S512x128.Slices ![0, 80] S512x16
  inb_S16384x384_S2048x384_10240_0 : ∀ a, (![10240, 0] : Fin 2 → Nat) a + S2048x384.size a ≤ S16384x384.size a
  slices_S512x128_o0_96_S512x16 : S512x128.Slices ![0, 96] S512x16
  inb_S16384x384_S2048x384_12288_0 : ∀ a, (![12288, 0] : Fin 2 → Nat) a + S2048x384.size a ≤ S16384x384.size a
  slices_S512x128_o0_112_S512x16 : S512x128.Slices ![0, 112] S512x16
  inb_S16384x384_S2048x384_14336_0 : ∀ a, (![14336, 0] : Fin 2 → Nat) a + S2048x384.size a ≤ S16384x384.size a
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S512x384_S512x384_0_0 : ∀ a, (![0, 0] : Fin 2 → Nat) a + S512x384.size a ≤ S512x384.size a
  h_S512x384 : 0 < S512x384.numel
  dot_S512x2048_S2048x384_S512x384_1_0_0_1_n_n_wf : DotDims.WF S512x2048 S2048x384 S512x384 [1] [0] [0] [1] [] []
  dot_S512x128_S128x384_S512x384_1_0_0_1_n_n_wf : DotDims.WF S512x128 S128x384 S512x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2x128.size a ≤ S16384x2x128.size a
  hwx0_0 : ∀ i : grid0.Coords, EltTy.bits .f32 = 32 ∨ (Rect.block (s := S16384x2x128) S512x2x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x384.size a ≤ S16384x384.size a
  hwx0_1 : ∀ i : grid0.Coords, EltTy.bits .bf16 = 32 ∨ (Rect.block (s := S16384x384) S16384x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .bf16 = 32 ∨ (Rect.block (s := S128x384) S128x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x384.size a ≤ S16384x384.size a
  hwx0_5 : ∀ i : grid0.Coords, EltTy.bits .f32 = 32 ∨ (Rect.block (s := S16384x384) S512x384.size (cc0_transform_5 i) (hinb0_5 i)).WholeWords (EltTy.packing .f32)

variable [Facts₀]

def dot_S512x2048_S2048x384_S512x384_1_0_0_1_n_n : DotDims S512x2048 S2048x384 S512x384 where
  lhsContracting := [1]
  rhsContracting := [0]
  lhsNonContracting := [0]
  rhsNonContracting := [1]
  lhsBatch := []
  rhsBatch := []
  wf := dot_S512x2048_S2048x384_S512x384_1_0_0_1_n_n_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf

abbrev win0_0 : Pipeline.Window sig grid0 :=
  Pipeline.Window.ofSpec (Memref.whole main_arg0) S512x2x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2x128 : Shape := ⟨3, ![16384, 2, 128]⟩
abbrev S128x128x384 : Shape := ⟨3, ![128, 128, 384]⟩
abbrev S384x128 : Shape := ⟨2, ![384, 128]⟩
abbrev S384 : Shape := ⟨1, ![384]⟩
abbrev S16384x1x128 : Shape := ⟨3, ![16384, 1, 128]⟩
abbrev S16384x128 : Shape := ⟨2, ![16384, 128]⟩
abbrev S16384x128x1 : Shape := ⟨3, ![16384, 128, 1]⟩
abbrev S16384x128x128 : Shape := ⟨3, ![16384, 128, 128]⟩
abbrev S16384x16384 : Shape := ⟨2, ![16384, 16384]⟩
abbrev S16384x384 : Shape := ⟨2, ![16384, 384]⟩
abbrev S128x384 : Shape := ⟨2, ![128, 384]⟩
abbrev S1x384 : Shape := ⟨2, ![1, 384]⟩

abbrev nBuf : Space → Nat
  | .hbm => 26
  | .vmem => 0
  | .smem => 0
  | _ => 0

abbrev bufTy : (tb : Table) → Fin (tcTables nBuf tb) → BufTy
  | .hbm, ⟨0, _⟩ => ⟨S16384x2x128, .f32⟩
  | .hbm, ⟨1, _⟩ => ⟨S128x128x384, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S16384x1x128, .f32⟩
  | .hbm, ⟨6, _⟩ => ⟨S16384x128, .f32⟩
  | .hbm, ⟨7, _⟩ => ⟨S16384x1x128, .f32⟩
  | .hbm, ⟨8, _⟩ => ⟨S16384x128, .f32⟩
  | .hbm, ⟨9, _⟩ => ⟨S16384x128x1, .f32⟩
  | .hbm, ⟨10, _⟩ => ⟨S16384x1x128, .f32⟩
  | .hbm, ⟨11, _⟩ => ⟨S16384x128x128, .f32⟩
  | .hbm, ⟨12, _⟩ => ⟨S16384x128x128, .f32⟩
  | .hbm, ⟨13, _⟩ => ⟨S16384x128x128, .f32⟩
  | .hbm, ⟨14, _⟩ => ⟨S16384x16384, .f32⟩
  | .hbm, ⟨15, _⟩ => ⟨S16384x384, .f32⟩
  | .hbm, ⟨16, _⟩ => ⟨S16384x384, .f32⟩
  | .hbm, ⟨17, _⟩ => ⟨S128x384, .f32⟩
  | .hbm, ⟨18, _⟩ => ⟨S16384x384, .f32⟩
  | .hbm, ⟨19, _⟩ => ⟨S16384x384, .f32⟩
  | .hbm, ⟨20, _⟩ => ⟨S128x384, .f32⟩
  | .hbm, ⟨21, _⟩ => ⟨S16384x384, .f32⟩
  | .hbm, ⟨22, _⟩ => ⟨S16384x384, .f32⟩
  | .hbm, ⟨23, _⟩ => ⟨S1x384, .f32⟩
  | .hbm, ⟨24, _⟩ => ⟨S16384x384, .f32⟩
  | .hbm, ⟨25, _⟩ => ⟨S16384x384, .f32⟩
  | _, _ => ⟨S16384x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]

class Facts₀ : Prop where
  slices_S16384x2x128_S16384x1x128_0_0_0 : S16384x2x128.Slices ![0, 0, 0] S16384x1x128
  shapeCasts_S16384x1x128_S16384x128 : S16384x1x128.ShapeCasts S16384x128
  slices_S16384x2x128_S16384x1x128_0_1_0 : S16384x2x128.Slices ![0, 1, 0] S16384x1x128
  bcast_S16384x128_S16384x128x1_0_1 : S16384x128.BroadcastsInDim S16384x128x1 (![0, 1] : Fin 2 → Fin S16384x128x1.rank)
  bcast_S16384x128_S16384x1x128_0_2 : S16384x128.BroadcastsInDim S16384x1x128 (![0, 2] : Fin 2 → Fin S16384x1x128.rank)
  bcast_S16384x128x1_S16384x128x128_0_1_2 : S16384x128x1.BroadcastsInDim S16384x128x128 (![0, 1, 2] : Fin 3 → Fin S16384x128x128.rank)
  bcast_S16384x1x128_S16384x128x128_0_1_2 : S16384x1x128.BroadcastsInDim S16384x128x128 (![0, 1, 2] : Fin 3 → Fin S16384x128x128.rank)
  shapeCasts_S16384x128x128_S16384x16384 : S16384x128x128.ShapeCasts S16384x16384
  shapeCasts_S128x128x384_S16384x384 : S128x128x384.ShapeCasts S16384x384
  transposes_S384x128_S128x384_1_0 : S384x128.Transposes [1, 0] S128x384
  bcast_S384_S1x384_1 : S384.BroadcastsInDim S1x384 (![1] : Fin 1 → Fin S1x384.rank)
  bcast_S1x384_S16384x384_0_1 : S1x384.BroadcastsInDim S16384x384 (![0, 1] : Fin 2 → Fin S16384x384.rank)
  dot_S16384x16384_S16384x384_S16384x384_1_0_0_1_n_n_wf : DotDims.WF S16384x16384 S16384x384 S16384x384 [1] [0] [0] [1] [] []
  dot_S16384x128_S128x384_S16384x384_1_0_0_1_n_n_wf : DotDims.WF S16384x128 S128x384 S16384x384 [1] [0] [0] [1] [] []

variable [Facts₀]

def dot_S16384x16384_S16384x384_S16384x384_1_0_0_1_n_n : DotDims S16384x16384 S16384x384 S16384x384 where
  lhsContracting := [1]
  rhsContracting := [0]
  lhsNonContracting := [0]
  rhsNonContracting := [1]
  lhsBatch := []
  rhsBatch := []
  wf := dot_S16384x16384_S16384x384_S16384x384_1_0_0_1_n_n_wf
def dot_S16384x128_S128x384_S16384x384_1_0_0_1_n_n : DotDims S16384x128 S128x384 S16384x384 where
  lhsContracting := [1]
  rhsContracting := [0]
  lhsNonContracting := [0]
  rhsNonContracting := [1]
  lhsBatch := []
  rhsBatch := []
  wf := dot_S16384x128_S128x384_S16384x384_1_0_0_1_n_n_wf

class Facts : Prop extends Facts₀ where

variable [Facts]
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.LibMiddleUnitAxis.lean ====
/-
  Layout operations around a UNIT AXIS in the middle or at the end of a small shape, read at an index written by
  coordinates. Over any element type and any extents `a`, `b`:
    * an `[a, b]` array cast to `[a, 1, b]` read at `(p, u, c)` is the operand at `(p, c)`, and back: an `[a, 1, b]` array
      cast to `[a, b]` read at `(p, c)` is the operand at `(p, 0, c)`;
    * an `[a, 1]` column cast to `[a, 1, 1]` read at `(p, u, v)` is the column at `(p, 0)`;
    * an `[a, 1, 1]` array broadcast to `[a, b, 1]` read at `(p, l, v)` is the operand at `(p, 0, 0)`.
  Each is the library's read-at-an-index lemma of the operation with the row-major arithmetic discharged: a unit axis
  contributes a factor `1` and a coordinate `0` to a row-major position.
-/
import Idealize.ShloMosaic.Lib.Pipeline.Value
import Idealize.ShloMosaic.Lib.ValueIdx

namespace Cert.MiddleUnitAxis

open Idealize.ShloMosaic Idealize.ShloMosaic.ValueIdx

variable {α : Type}

/-- An `[a, b]` array cast to `[a, 1, b]` reads, at `(p, u, c)`, the operand at `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An `[a, 1, b]` array cast to `[a, b]` reads, at `(p, c)`, the operand at `(p, 0, c)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

/-- An `[a, 1]` column cast to `[a, 1, 1]` reads, at `(p, u, v)`, the column at `(p, 0)`. -/
theorem shapeCast_a1_a11_apply {a : ℕ} (x : (⟨2, ![a, 1]⟩ : Shape).Idx → α)
    (h : (⟨2, ![a, 1]⟩ : Shape).ShapeCasts ⟨3, ![a, 1, 1]⟩) (p : Fin a) (u v : Fin 1) :
    shapeCast ⟨3, ![a, 1, 1]⟩ x h (ix3 p u v) = x (ix2 p (0 : Fin 1)) :=
  shapeCast_apply x h _ _ (by
    have hu : u.val = 0 := by omega
    have hv : v.val = 0 := by omega
    rw [Shape.rowMajor_val_three, Shape.rowMajor_val_two]
    show p.val * 1 + 0 = (p.val * 1 + u.val) * 1 + v.val
    rw [hu, hv, Nat.mul_one, Nat.add_zero, Nat.mul_one, Nat.add_zero])

/-- An `[a, 1, 1]` array broadcast to `[a, b, 1]` reads, at `(p, l, v)`, the operand at `(p, 0, 0)`. -/
theorem broadcastTo_a11_ab1_apply {a b : ℕ} (x : (⟨3, ![a, 1, 1]⟩ : Shape).Idx → α)
    (h : (⟨3, ![a, 1, 1]⟩ : Shape).Broadcasts ⟨3, ![a, b, 1]⟩) (p : Fin a) (l : Fin b) (v : Fin 1) :
    broadcastTo ⟨3, ![a, b, 1]⟩ x h (ix3 p l v) = x (ix3 p (0 : Fin 1) (0 : Fin 1)) := by
  refine broadcastTo_apply x h (ix3 p l v) (ix3 p (0 : Fin 1) (0 : Fin 1)) fun ax => ?_
  match ax with
  | ⟨0, _⟩ =>
    show p.val = if a = 1 then 0 else p.val
    split
    · have := p.isLt; omega
    · rfl
  | ⟨1, _⟩ => show 0 = if (1 : ℕ) = 1 then 0 else l.val; rw [if_pos rfl]
  | ⟨2, _⟩ => show 0 = if (1 : ℕ) = 1 then 0 else v.val; rw [if_pos rfl]

end Cert.MiddleUnitAxis
-- ==== Proof.LibOuterLayout.lean ====
/-
  Layout operations that build an outer product of two rows and lay it out flat, read at an index written by
  coordinates. Over any element type and any extents `a`, `b`, `c`:
    * an `[a, b]` array cast to `[a, b, 1]` (a trailing unit axis added) read at `(p, l, v)` is the operand at `(p, l)`;
    * an `[a, b, 1]` array broadcast to `[a, b, c]` read at `(p, l, j)` is the operand at `(p, l, 0)`: the value does
      not depend on the last coordinate;
    * an `[a, 1, c]` array broadcast to `[a, b, c]` read at `(p, l, j)` is the operand at `(p, 0, j)`: the value does
      not depend on the middle coordinate;
    * an `[a, b, c]` array cast to `[a, n]` with `n = b * c` (the last two axes flattened, row-major) read at `(p, q)`
      is the operand at `(p, l, j)` whenever `q = l * c + j`.
  Each is the library's read-at-an-index lemma of the operation with the row-major arithmetic discharged: a unit axis
  contributes a factor `1` and a coordinate `0` to a row-major position, and flattening two axes keeps the position.
-/
import Idealize.ShloMosaic.Lib.Pipeline.Value
import Idealize.ShloMosaic.Lib.ValueIdx
import Mathlib.Tactic.Ring

namespace Cert.OuterLayout

open Idealize.ShloMosaic Idealize.ShloMosaic.ValueIdx

variable {α : Type}

/-- An `[a, b]` array cast to `[a, b, 1]` reads, at `(p, l, v)`, the operand at `(p, l)`. -/
theorem shapeCast_ab_ab1_apply {a b : ℕ} (x : (⟨2, ![a, b]⟩ : Shape).Idx → α)
    (h : (⟨2, ![a, b]⟩ : Shape).ShapeCasts ⟨3, ![a, b, 1]⟩) (p : Fin a) (l : Fin b) (v : Fin 1) :
    shapeCast ⟨3, ![a, b, 1]⟩ x h (ix3 p l v) = x (ix2 p l) :=
  shapeCast_apply x h _ _ (by
    have hv : v.val = 0 := by omega
    rw [Shape.rowMajor_val_three, Shape.rowMajor_val_two]
    show p.val * b + l.val = (p.val * b + l.val) * 1 + v.val
    rw [hv, Nat.mul_one, Nat.add_zero])

/-- An `[a, b, 1]` array broadcast to `[a, b, c]` reads, at `(p, l, j)`, the operand at `(p, l, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (l : Fin b) (j : Fin c) :
    broadcastTo ⟨3, ![a, b, c]⟩ x h (ix3 p l j) = x (ix3 p l (0 : Fin 1)) := by
  refine broadcastTo_apply x h (ix3 p l j) (ix3 p l (0 : Fin 1)) fun ax => ?_
  match ax with
  | ⟨0, _⟩ =>
    show p.val = if a = 1 then 0 else p.val
    split
    · have := p.isLt; omega
    · rfl
  | ⟨1, _⟩ =>
    show l.val = if b = 1 then 0 else l.val
    split
    · have := l.isLt; omega
    · rfl
  | ⟨2, _⟩ => show 0 = if (1 : ℕ) = 1 then 0 else j.val; rw [if_pos rfl]

/-- An `[a, 1, c]` array broadcast to `[a, b, c]` reads, at `(p, l, j)`, the operand at `(p, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (l : Fin b) (j : Fin c) :
    broadcastTo ⟨3, ![a, b, c]⟩ x h (ix3 p l j) = x (ix3 p (0 : Fin 1) j) := by
  refine broadcastTo_apply x h (ix3 p l j) (ix3 p (0 : Fin 1) j) fun ax => ?_
  match ax with
  | ⟨0, _⟩ =>
    show p.val = if a = 1 then 0 else p.val
    split
    · have := p.isLt; omega
    · rfl
  | ⟨1, _⟩ => show 0 = if (1 : ℕ) = 1 then 0 else l.val; rw [if_pos rfl]
  | ⟨2, _⟩ =>
    show j.val = if c = 1 then 0 else j.val
    split
    · have := j.isLt; omega
    · rfl

/-- An `[a, b, c]` array cast to `[a, n]`, `n = b * c`, reads, at `(p, q)`, the operand at `(p, l, j)` when
    `q = l * c + j`: flattening the last two axes row-major keeps every element's position. -/
theorem shapeCast_abc_an_apply {a b c n : ℕ} (x : (⟨3, ![a, b, c]⟩ : Shape).Idx → α)
    (h : (⟨3, ![a, b, c]⟩ : Shape).ShapeCasts ⟨2, ![a, n]⟩) (hn : n = b * c) (p : Fin a) (q : Fin n)
    (l : Fin b) (j : Fin c) (hq : q.val = l.val * c + j.val) :
    shapeCast ⟨2, ![a, n]⟩ x h (ix2 p q) = x (ix3 p l j) :=
  shapeCast_apply x h _ _ (by
    rw [Shape.rowMajor_val_three, Shape.rowMajor_val_two]
    show (p.val * b + l.val) * c + j.val = p.val * n + q.val
    rw [hq, hn]; ring)

end Cert.OuterLayout
-- ==== Proof.LibBlockSum.lean ====
/-
  A finite sum taken block by block.  A sum of `A * B` terms indexed by the naturals below `A * B` is the sum, over
  the `A` consecutive blocks of length `B`, of each block's sum: term `B * s + k` is the `k`-th term of block `s`.
  Only commutativity and associativity of the addition are used, so the law holds in any commutative additive
  monoid — in particular on the extended reals, where no finiteness of the terms is needed.
-/
import Mathlib.Algebra.BigOperators.Fin
import Mathlib.Algebra.BigOperators.Intervals

namespace BlockSum

open Finset

/-- Over `Finset.range`: the `A` block sums of length `B` add up to the sum of the first `A * B` terms. -/
theorem sum_range_blocks {β : Type*} [AddCommMonoid β] (B : ℕ) (f : ℕ → β) :
    ∀ A : ℕ, ∑ s ∈ range A, ∑ k ∈ range B, f (B * s + k) = ∑ j ∈ range (A * B), f j
  | 0 => by simp
  | A + 1 => by
    rw [sum_range_succ, sum_range_blocks B f A, Nat.succ_mul, sum_range_add, Nat.mul_comm B A]

/-- The same with the position inside a block and the position in the whole sum ranging over `Fin`: the form in which
    a sum over a contracted axis of length `A * B`, split into `A` tiles of length `B`, is met. -/
theorem sum_fin_blocks {β : Type*} [AddCommMonoid β] (A B : ℕ) (f : ℕ → β) :
    ∑ s ∈ range A, ∑ k : Fin B, f (B * s + k.val) = ∑ j : Fin (A * B), f j.val := by
  rw [Fin.sum_univ_eq_sum_range (fun j => f j) (A * B), ← sum_range_blocks B f A]
  exact sum_congr rfl fun s _ => Fin.sum_univ_eq_sum_range (fun k => f (B * s + k)) B

end BlockSum
-- ==== Proof.BilinearSpec.lean ====
/-
  The bilinear gate, as one function of the argument arrays, and the law that joins its two arrangements.

  For a node `n` with the two neighbour rows `h1 = x (n, 0, ·)` and `h2 = x (n, 1, ·)` (each of length 128), a weight array
  `A` read flat as `[128 * 128, 384]`, two transposed gate weights `U1ᵀ, U2ᵀ : [128, 384]` and a bias `b : [384]`, output
  column `k` of node `n` is

      (Σ_{r < 16384} (h1 (r / 128) · h2 (r % 128)) · A (r, k)  +  Σ_j h1 j · U1ᵀ (j, k))  +  Σ_j h2 j · U2ᵀ (j, k))  +  b k

  — the bilinear form `h1ᵀ A_k h2` written as one contraction of the flattened outer product of the two rows against the
  flattened weights, plus the two linear gates and the bias, added in this order.

  One arrangement takes the long contraction in one piece; the other cuts its 16384 = 8 · 2048 terms into eight consecutive
  blocks and adds the block sums one after the other onto a zero. The two agree by commutativity and associativity of
  addition alone (`eight_blocks`), so they agree on the extended reals with no finiteness assumption on the terms.
-/
import Idealize.ShloMosaic.PureOps.Ideal
import Idealize.ShloMosaic.Lib.ValueIdx
import proofs.«163197_j75453985456646_2_alg».proof.Proof.LibBlockSum

noncomputable section

namespace Cert.BilinearGate

open Idealize.ShloMosaic Idealize.ShloMosaic.ValueIdx

/-- Eight consecutive blocks of length `B`, summed block by block onto a zero in order, give the sum of all
    `N = 8 * B` terms. Only the commutative-monoid laws are used. -/
theorem eight_blocks {β : Type*} [AddCommMonoid β] (B N : ℕ) (hN : N = 8 * B) (f : ℕ → β) :
    ((((((((0 + ∑ q : Fin B, f (B * 0 + q.val)) + ∑ q : Fin B, f (B * 1 + q.val)) + ∑ q : Fin B, f (B * 2 + q.val))
        + ∑ q : Fin B, f (B * 3 + q.val)) + ∑ q : Fin B, f (B * 4 + q.val)) + ∑ q : Fin B, f (B * 5 + q.val))
        + ∑ q : Fin B, f (B * 6 + q.val)) + ∑ q : Fin B, f (B * 7 + q.val))
      = ∑ r : Fin N, f r.val := by
  subst hN
  rw [← BlockSum.sum_fin_blocks 8 B f]
  simp only [Finset.sum_range_succ, Finset.sum_range_zero]

/-- Term `r` of the long contraction for one node and one output column: the product of entry `r / 128` of the first
    row and entry `r % 128` of the second — entry `r` of their flattened outer product — times row `r` of the flat
    weights. The indices are reduced modulo their extents so that the term is defined at every natural `r`; below
    `16384` the reductions change nothing. -/
def bilinearTerm (h1 h2 : Fin 128 → EReal) (a : Fin 16384 → EReal) (r : ℕ) : EReal :=
  (h1 ⟨r / 128 % 128, Nat.mod_lt _ (by decide)⟩ * h2 ⟨r % 128, Nat.mod_lt _ (by decide)⟩)
    * a ⟨r % 16384, Nat.mod_lt _ (by decide)⟩

/-- The gate's value at node `n`, output column `k`. -/
def gateAt (x : (⟨3, ![16384, 2, 128]⟩ : Shape).Idx → EReal) (a2 : (⟨2, ![16384, 384]⟩ : Shape).Idx → EReal)
    (u1 u2 : (⟨2, ![128, 384]⟩ : Shape).Idx → EReal) (b : (⟨1, ![384]⟩ : Shape).Idx → EReal)
    (n : Fin 16384) (k : Fin 384) : EReal :=
  ((∑ r : Fin 16384, bilinearTerm (fun i => x (ix3 n (0 : Fin 2) i)) (fun j => x (ix3 n (1 : Fin 2) j)) (fun r => a2 (ix2 r k)) r.val
      + ∑ j : Fin 128, x (ix3 n (0 : Fin 2) j) * u1 (ix2 j k))
      + ∑ j : Fin 128, x (ix3 n (1 : Fin 2) j) * u2 (ix2 j k))
    + b (ix1 k)

/-- The gate as a whole `[16384, 384]` array. -/
def gate (x : (⟨3, ![16384, 2, 128]⟩ : Shape).Idx → EReal) (a2 : (⟨2, ![16384, 384]⟩ : Shape).Idx → EReal)
    (u1 u2 : (⟨2, ![128, 384]⟩ : Shape).Idx → EReal) (b : (⟨1, ![384]⟩ : Shape).Idx → EReal) :
    (⟨2, ![16384, 384]⟩ : Shape).Idx → EReal :=
  fun i => gateAt x a2 u1 u2 b (i 0) (i 1)

theorem gate_ix2 (x : (⟨3, ![16384, 2, 128]⟩ : Shape).Idx → EReal) (a2 : (⟨2, ![16384, 384]⟩ : Shape).Idx → EReal)
    (u1 u2 : (⟨2, ![128, 384]⟩ : Shape).Idx → EReal) (b : (⟨1, ![384]⟩ : Shape).Idx → EReal) (n : Fin 16384) (k : Fin 384) :
    gate x a2 u1 u2 b (ix2 n k) = gateAt x a2 u1 u2 b n k := rfl

end Cert.BilinearGate

end
-- ==== Proof.KernelBody.lean ====
/-
  The kernel body's stored value, read at an index of its output block.

  At a grid point the body holds a `[512, 2, 128]` block of neighbour rows, the whole flat weights `[16384, 384]`, the two
  transposed gate weights `[128, 384]` and the bias row `[1, 384]`. For block row `p` write `h1 = x (p, 0, ·)` and
  `h2 = x (p, 1, ·)`. The body cuts `h1` into eight runs of 16 entries; for run `c` it forms the 16 × 128 products
  `h1 (16 c + l) · h2 j`, lays them out flat (product `(l, j)` at position `128 l + j`), and contracts the 2048 of them
  against rows `2048 c … 2048 c + 2047` of the flat weights; the eight results are added, in order, onto a zero block.
  Position `q` of run `c` is position `2048 c + q` of the full flattened outer product of `h1` and `h2`, because
  `2048 = 16 · 128`; so the eight sums are the eight consecutive blocks of the one long contraction
  `Σ_{r < 16384} (h1 (r / 128) · h2 (r % 128)) · A (r, k)`, and adding them onto zero gives that contraction
  (`Cert.BilinearGate.eight_blocks`: commutativity and associativity of the addition only). The two linear gates are
  row-by-column products of `h1`, `h2` with the transposed weights, and the bias row is repeated over the block's rows.
  Rounding to the narrower float format is the identity on the extended reals, so it disappears from every entry.
-/
import proofs.«163197_j75453985456646_2_alg».proof.Proof.Gen.KernelIdeal.Frame
import proofs.«163197_j75453985456646_2_alg».proof.Proof.LibRowColumn
import proofs.«163197_j75453985456646_2_alg».proof.Proof.LibMiddleUnitAxis
import proofs.«163197_j75453985456646_2_alg».proof.Proof.LibOuterLayout
import proofs.«163197_j75453985456646_2_alg».proof.Proof.BilinearSpec
import Idealize.ShloMosaic.Lib.ValueLayout
import Idealize.ShloMosaic.PureOps.Ideal.Laws

noncomputable section

namespace Cert.KernelIdeal.GateBody

open Cert.KernelIdeal Cert.KernelIdeal.Gen Idealize.ShloMosaic Idealize.ShloMosaic.ValueIdx

theorem lhsA_0 (i : S512x384.Idx) (q : dot_S512x2048_S2048x384_S512x384_1_0_0_1_n_n.contr.Idx) : (dot_S512x2048_S2048x384_S512x384_1_0_0_1_n_n.lhsIdx i q 0).val = (i 0).val := by
  unfold DotDims.lhsIdx
  rw [dif_neg (show ¬(0 : Fin S512x2048.rank) ∈ dot_S512x2048_S2048x384_S512x384_1_0_0_1_n_n.lhsBatch by decide), dif_pos (show (0 : Fin S512x2048.rank) ∈ dot_S512x2048_S2048x384_S512x384_1_0_0_1_n_n.lhsNonContracting by decide)]
  rfl
theorem lhsA_1 (i : S512x384.Idx) (q : dot_S512x2048_S2048x384_S512x384_1_0_0_1_n_n.contr.Idx) : (dot_S512x2048_S2048x384_S512x384_1_0_0_1_n_n.lhsIdx i q 1).val = (q ⟨0, by decide⟩).val :=
  dot_S512x2048_S2048x384_S512x384_1_0_0_1_n_n.lhsIdx_val_of_single rfl i q
theorem rhsA_0 (i : S512x384.Idx) (q : dot_S512x2048_S2048x384_S512x384_1_0_0_1_n_n.contr.Idx) : (dot_S512x2048_S2048x384_S512x384_1_0_0_1_n_n.rhsIdx i q 0).val = (q ⟨0, by decide⟩).val :=
  dot_S512x2048_S2048x384_S512x384_1_0_0_1_n_n.rhsIdx_val_of_single rfl i q
theorem rhsA_1 (i : S512x384.Idx) (q : dot_S512x2048_S2048x384_S512x384_1_0_0_1_n_n.contr.Idx) : (dot_S512x2048_S2048x384_S512x384_1_0_0_1_n_n.rhsIdx i q 1).val = (i 1).val := by
  unfold DotDims.rhsIdx
  rw [dif_neg (show ¬(1 : Fin S2048x384.rank) ∈ dot_S512x2048_S2048x384_S512x384_1_0_0_1_n_n.rhsBatch by decide), dif_pos (show (1 : Fin S2048x384.rank) ∈ dot_S512x2048_S2048x384_S512x384_1_0_0_1_n_n.rhsNonContracting by decide)]
  rfl

theorem lhsU_0 (i : S512x384.Idx) (q : dot_S512x128_S128x384_S512x384_1_0_0_1_n_n.contr.Idx) : (dot_S512x128_S128x384_S512x384_1_0_0_1_n_n.lhsIdx i q 0).val = (i 0).val := by
  unfold DotDims.lhsIdx
  rw [dif_neg (show ¬(0 : Fin S512x128.rank) ∈ dot_S512x128_S128x384_S512x384_1_0_0_1_n_n.lhsBatch by decide), dif_pos (show (0 : Fin S512x128.rank) ∈ dot_S512x128_S128x384_S512x384_1_0_0_1_n_n.lhsNonContracting by decide)]
  rfl
theorem lhsU_1 (i : S512x384.Idx) (q : dot_S512x128_S128x384_S512x384_1_0_0_1_n_n.contr.Idx) : (dot_S512x128_S128x384_S512x384_1_0_0_1_n_n.lhsIdx i q 1).val = (q ⟨0, by decide⟩).val :=
  dot_S512x128_S128x384_S512x384_1_0_0_1_n_n.lhsIdx_val_of_single rfl i q
theorem rhsU_0 (i : S512x384.Idx) (q : dot_S512x128_S128x384_S512x384_1_0_0_1_n_n.contr.Idx) : (dot_S512x128_S128x384_S512x384_1_0_0_1_n_n.rhsIdx i q 0).val = (q ⟨0, by decide⟩).val :=
  dot_S512x128_S128x384_S512x384_1_0_0_1_n_n.rhsIdx_val_of_single rfl i q
theorem rhsU_1 (i : S512x384.Idx) (q : dot_S512x128_S128x384_S512x384_1_0_0_1_n_n.contr.Idx) : (dot_S512x128_S128x384_S512x384_1_0_0_1_n_n.rhsIdx i q 1).val = (i 1).val := by
  unfold DotDims.rhsIdx
  rw [dif_neg (show ¬(1 : Fin S128x384.rank) ∈ dot_S512x128_S128x384_S512x384_1_0_0_1_n_n.rhsBatch by decide), dif_pos (show (1 : Fin S128x384.rank) ∈ dot_S512x128_S128x384_S512x384_1_0_0_1_n_n.rhsNonContracting by decide)]
  rfl

/-- The load of the first neighbour row. -/
theorem ld_row0 (x0 : Vec Ideal S512x2x128 .f32) (p : Fin 512) (u : Fin 1) (j : Fin 128) :
    View.ld x0 r0_0 (ix3 p u j) = x0 (ix3 p (0 : Fin 2) j) := by
  have hu : u.val = 0 := by omega
  show x0 (r0_0.idx (ix3 p u j)) = x0 (ix3 p (0 : Fin 2) j)
  refine congrArg x0 (funext fun a => Fin.ext ?_)
  match a with
  | ⟨0, _⟩ => show 0 + 1 * p.val = p.val; omega
  | ⟨1, _⟩ => show 0 + 1 * u.val = 0; omega
  | ⟨2, _⟩ => show 0 + 1 * j.val = j.val; omega

theorem ld_row1 (x0 : Vec Ideal S512x2x128 .f32) (p : Fin 512) (u : Fin 1) (j : Fin 128) :
    View.ld x0 r0_1 (ix3 p u j) = x0 (ix3 p (1 : Fin 2) j) := by
  have hu : u.val = 0 := by omega
  show x0 (r0_1.idx (ix3 p u j)) = x0 (ix3 p (1 : Fin 2) j)
  refine congrArg x0 (funext fun a => Fin.ext ?_)
  match a with
  | ⟨0, _⟩ => show 0 + 1 * p.val = p.val; omega
  | ⟨1, _⟩ => show 1 + 1 * u.val = 1; omega
  | ⟨2, _⟩ => show 0 + 1 * j.val = j.val; omega

/-- A row block cast from [512, 1, 128] to [512, 128]. -/
theorem row_apply (v : Vec Ideal S512x1x128 .f32) (h : S512x1x128.ShapeCasts S512x128) (p : Fin 512) (j : Fin 128) :
    shapeCast S512x128 v h (ix2 p j) = v (ix3 p (0 : Fin 1) j) :=
  Cert.MiddleUnitAxis.shapeCast_a1b_ab_apply v h p j

/-- One linear gate. -/
theorem linear_apply (v : FVec Ideal S512x128 .bf16) (w : FVec Ideal S128x384 .bf16) (h : S128x384.ShapeCasts S128x384)
    (p : Fin 512) (k : Fin 384) :
    matmul dot_S512x128_S128x384_S512x384_1_0_0_1_n_n none v (shapeCast S128x384 w h) (constant (F := Ideal) S512x384 .f32 0x00000000#32) (ix2 p k)
      = ∑ j : Fin 128, v (ix2 p j) * w (ix2 j k) := by
  rw [shapeCast_self]
  exact Cert.Lib.RowColumn.matmul_zero_entry (M := 512) (K := 128) (N := 384) dot_S512x128_S128x384_S512x384_1_0_0_1_n_n rfl rfl lhsU_0 lhsU_1 rhsU_0 rhsU_1 none v w (ix2 p k)

/-- One chunk of the bilinear contraction at block row `p` and output column `k`: 16 consecutive entries of the first
    row from entry `o`, each against the whole second row, flattened to 2048 products and contracted against a
    `[2048, 384]` block `a` of the flat weights. -/
theorem chunk_apply (o : ℕ) (ho : o + 16 ≤ 128)
    (hs : S512x128.Slices ![0, o] S512x16) (h1 : S512x16.ShapeCasts S512x16x1) (h2 : S512x128.ShapeCasts S512x1x128)
    (h3 : S512x16x1.Broadcasts S512x16x128) (h4 : S512x1x128.Broadcasts S512x16x128) (h5 : FTy.bits .bf16 < FTy.bits .f32)
    (h6 : S512x16x128.ShapeCasts S512x2048) (h7 : S2048x384.ShapeCasts S2048x384)
    (v1 v3 : FVec Ideal S512x128 .f32) (a : FVec Ideal S2048x384 .bf16) (p : Fin 512) (k : Fin 384) :
    matmul dot_S512x2048_S2048x384_S512x384_1_0_0_1_n_n none
        (shapeCast S512x2048 (truncf .bf16 (mulf
          (broadcastTo S512x16x128 (shapeCast S512x16x1 (extractStridedSlice S512x16 ![0, o] v1 hs) h1) h3)
          (broadcastTo S512x16x128 (shapeCast S512x1x128 v3 h2) h4)) h5) h6)
        (shapeCast S2048x384 a h7)
        (constant (F := Ideal) S512x384 .f32 0x00000000#32) (ix2 p k)
      = ∑ q : Fin 2048, (v1 (ix2 p (⟨o + q.val / 128, by have := q.isLt; omega⟩ : Fin 128))
          * v3 (ix2 p (⟨q.val % 128, Nat.mod_lt _ (by decide)⟩ : Fin 128))) * a (ix2 q k) := by
  rw [shapeCast_self]
  refine (Cert.Lib.RowColumn.matmul_zero_entry (M := 512) (K := 2048) (N := 384) dot_S512x2048_S2048x384_S512x384_1_0_0_1_n_n rfl rfl lhsA_0 lhsA_1 rhsA_0 rhsA_1 none _ _ (ix2 p k)).trans ?_
  refine Finset.sum_congr rfl fun q _ => ?_
  have hq : q.val < 2048 := q.isLt
  refine congrArg (· * a (ix2 q k)) ?_
  show shapeCast S512x2048 _ h6 (ix2 p q) = _
  -- the flattened outer product at (p, q) is entry (p, q / 128, q % 128) of the product of the two broadcasts
  rw [Cert.OuterLayout.shapeCast_abc_an_apply (a := 512) (b := 16) (c := 128) (n := 2048) _ h6 (by decide) p q
        ⟨q.val / 128, by omega⟩ ⟨q.val % 128, Nat.mod_lt _ (by decide)⟩ (by show q.val = q.val / 128 * 128 + q.val % 128; omega)]
  rw [truncf_apply, mulf_apply,
    Cert.OuterLayout.broadcastTo_ab1_abc_apply (a := 512) (b := 16) (c := 128) _ h3,
    Cert.OuterLayout.broadcastTo_a1c_abc_apply (a := 512) (b := 16) (c := 128) _ h4,
    Cert.OuterLayout.shapeCast_ab_ab1_apply (a := 512) (b := 16) _ h1,
    Cert.MiddleUnitAxis.shapeCast_ab_a1b_apply (a := 512) (b := 128) _ h2,
    slice2_axis1_apply (n0 := 512) (n1 := 128) (m := 16) o v1 hs p ⟨q.val / 128, by omega⟩ ⟨o + q.val / 128, by omega⟩ rfl]

/-- A `[2048, 384]` block of the flat weights loaded from row `R` on reads, at `(q, k)`, row `R + q`. -/
theorem ld_weights (R : ℕ) (hR : R + 2048 ≤ 16384) (inb : ∀ a, (![R, 0] : Fin 2 → Nat) a + S2048x384.size a ≤ S16384x384.size a)
    (x1 : Vec Ideal S16384x384 .bf16) (q : Fin 2048) (k : Fin 384) :
    View.ld x1 (Rect.unit (s := S16384x384) ![R, 0] S2048x384.size inb) (ix2 q k)
      = x1 (ix2 (⟨R + q.val, by have := q.isLt; omega⟩ : Fin 16384) k) := by
  show x1 ((Rect.unit (s := S16384x384) ![R, 0] S2048x384.size inb).idx (ix2 q k)) = _
  refine congrArg x1 (funext fun a => Fin.ext ?_)
  match a with
  | ⟨0, _⟩ => show R + 1 * q.val = R + q.val; omega
  | ⟨1, _⟩ => show 0 + 1 * k.val = k.val; omega

open Cert.BilinearGate in
/-- Product `q` of chunk `c` is term `2048 c + q` of the long contraction: `(2048 c + q) / 128 = 16 c + q / 128`
    and `(2048 c + q) % 128 = q % 128`, since `2048 = 16 · 128`. -/
theorem chunk_term (c : ℕ) (hc : c < 8) (h1 h2 : Fin 128 → EReal) (w : Fin 16384 → EReal) (q : Fin 2048) :
    (h1 (⟨16 * c + q.val / 128, by have := q.isLt; omega⟩ : Fin 128) * h2 (⟨q.val % 128, Nat.mod_lt _ (by decide)⟩ : Fin 128))
        * w (⟨2048 * c + q.val, by have := q.isLt; omega⟩ : Fin 16384)
      = bilinearTerm h1 h2 w (2048 * c + q.val) := by
  have hq : q.val < 2048 := q.isLt
  unfold bilinearTerm
  have e1 : (⟨16 * c + q.val / 128, by omega⟩ : Fin 128) = ⟨(2048 * c + q.val) / 128 % 128, Nat.mod_lt _ (by decide)⟩ := Fin.ext (by show 16 * c + q.val / 128 = (2048 * c + q.val) / 128 % 128; omega)
  have e2 : (⟨q.val % 128, Nat.mod_lt _ (by decide)⟩ : Fin 128) = ⟨(2048 * c + q.val) % 128, Nat.mod_lt _ (by decide)⟩ := Fin.ext (by show q.val % 128 = (2048 * c + q.val) % 128; omega)
  have e3 : (⟨2048 * c + q.val, by omega⟩ : Fin 16384) = ⟨(2048 * c + q.val) % 16384, Nat.mod_lt _ (by decide)⟩ := Fin.ext (by show 2048 * c + q.val = (2048 * c + q.val) % 16384; omega)
  rw [e1, e2, e3]

/-- The bias row broadcast over the block's rows. -/
theorem bias_apply (v : Vec Ideal S1x384 .f32) (h : S1x384.ShapeCasts S1x384) (hb : S1x384.Broadcasts S512x384) (p : Fin 512) (k : Fin 384) :
    broadcastTo S512x384 (shapeCast S1x384 v h) hb (ix2 p k) = v (ix2 (0 : Fin 1) k) := by
  rw [shapeCast_self]
  exact broadcastTo_1b_ab_apply v hb p k

/-! ## The body's stored value as a sum of named pieces -/

/-- One chunk of the bilinear contraction as a whole `[512, 384]` block (the body's operations, in its own order). -/
def chunk (o : ℕ) (hs : S512x128.Slices ![0, o] S512x16) (v1 v3 : FVec Ideal S512x128 .f32) (a : FVec Ideal S2048x384 .bf16) :
    FVec Ideal S512x384 .f32 :=
  matmul dot_S512x2048_S2048x384_S512x384_1_0_0_1_n_n none
    (shapeCast S512x2048 (truncf .bf16 (mulf
      (broadcastTo S512x16x128 (shapeCast S512x16x1 (extractStridedSlice S512x16 ![0, o] v1 hs) shapeCasts_S512x16_S512x16x1) broadcasts_S512x16x1_S512x16x128)
      (broadcastTo S512x16x128 (shapeCast S512x1x128 v3 shapeCasts_S512x128_S512x1x128) broadcasts_S512x1x128_S512x16x128)) bitsLt_bf16_f32) shapeCasts_S512x16x128_S512x2048)
    (shapeCast S2048x384 a shapeCasts_S2048x384_S2048x384)
    (constant (F := Ideal) S512x384 .f32 0x00000000#32)

/-- One linear gate as a whole block. -/
def linear (v : FVec Ideal S512x128 .bf16) (w : FVec Ideal S128x384 .bf16) : FVec Ideal S512x384 .f32 :=
  matmul dot_S512x128_S128x384_S512x384_1_0_0_1_n_n none v (shapeCast S128x384 w shapeCasts_S128x384_S128x384) (constant (F := Ideal) S512x384 .f32 0x00000000#32)

/-- The bias row over the block's rows. -/
def biasRows (v : FVec Ideal S1x384 .f32) : FVec Ideal S512x384 .f32 :=
  broadcastTo S512x384 (shapeCast S1x384 v shapeCasts_S1x384_S1x384) broadcasts_S1x384_S512x384

/-- Chunks 0, 1, 2 added onto the zero block. -/
theorem pay6_eq (v0 v2 : Vec Ideal S512x1x128 .f32) (v15 v27 v39 : Vec Ideal S2048x384 .bf16) :
    k0_pay6 (F := Ideal) v0 v2 v15 v27 v39
      = addf (addf (addf (broadcast S512x384 (Scalar.ofBits (F := Ideal) .f32 0x00000000#32))
          (chunk 0 slices_S512x128_o0_0_S512x16 (k0_pay2 v0) (k0_pay3 v2) v15))
          (chunk 16 slices_S512x128_o0_16_S512x16 (k0_pay2 v0) (k0_pay3 v2) v27))
          (chunk 32 slices_S512x128_o0_32_S512x16 (k0_pay2 v0) (k0_pay3 v2) v39) := rfl

/-- Chunks 3, 4, 5, 6 added onto what came before. -/
theorem pay7_eq (v1 v3 : FVec Ideal S512x128 .f32) (v42 : FVec Ideal S512x384 .f32) (v51 v63 v75 v87 : Vec Ideal S2048x384 .bf16) :
    k0_pay7 (F := Ideal) v1 v3 v42 v51 v63 v75 v87
      = addf (addf (addf (addf v42 (chunk 48 slices_S512x128_o0_48_S512x16 v1 v3 v51))
          (chunk 64 slices_S512x128_o0_64_S512x16 v1 v3 v63))
          (chunk 80 slices_S512x128_o0_80_S512x16 v1 v3 v75))
          (chunk 96 slices_S512x128_o0_96_S512x16 v1 v3 v87) := rfl

/-- Chunk 7, then the two linear gates, then the bias. -/
theorem pay1_eq (v1 v3 : FVec Ideal S512x128 .f32) (v4 v5 : FVec Ideal S512x128 .bf16) (v90 : FVec Ideal S512x384 .f32)
    (v99 : Vec Ideal S2048x384 .bf16) (v103 v106 : Vec Ideal S128x384 .bf16) (v111 : Vec Ideal S1x384 .f32) :
    k0_pay1 (F := Ideal) v1 v3 v4 v5 v90 v99 v103 v106 v111
      = addf (addf (addf (addf v90 (chunk 112 slices_S512x128_o0_112_S512x16 v1 v3 v99)) (linear v4 v103)) (linear v5 v106)) (biasRows v111) := rfl

/-! ## The pieces at a block index -/

/-- The first neighbour row of the block, as the body reads it. -/
theorem row0_at (x0 : Vec Ideal S512x2x128 .f32) (p : Fin 512) (j : Fin 128) :
    k0_pay2 (F := Ideal) (View.ld x0 r0_0) (ix2 p j) = x0 (ix3 p (0 : Fin 2) j) := by
  unfold k0_pay2
  exact (row_apply _ _ p j).trans (ld_row0 x0 p 0 j)

/-- The second neighbour row of the block. -/
theorem row1_at (x0 : Vec Ideal S512x2x128 .f32) (p : Fin 512) (j : Fin 128) :
    k0_pay3 (F := Ideal) (View.ld x0 r0_1) (ix2 p j) = x0 (ix3 p (1 : Fin 2) j) := by
  unfold k0_pay3
  exact (row_apply _ _ p j).trans (ld_row1 x0 p 0 j)

open Cert.BilinearGate in
/-- Chunk `c` of the body at block row `p`, column `k`: terms `2048 c … 2048 c + 2047` of the long contraction. -/
theorem chunk_at (c o R : ℕ) (hc : c < 8) (ho : o = 16 * c) (hR : R = 2048 * c)
    (hs : S512x128.Slices ![0, o] S512x16) (inb : ∀ a, (![R, 0] : Fin 2 → Nat) a + S2048x384.size a ≤ S16384x384.size a)
    (x0 : Vec Ideal S512x2x128 .f32) (x1 : Vec Ideal S16384x384 .bf16) (p : Fin 512) (k : Fin 384) :
    chunk o hs (k0_pay2 (View.ld x0 r0_0)) (k0_pay3 (View.ld x0 r0_1)) (View.ld x1 (Rect.unit (s := S16384x384) ![R, 0] S2048x384.size inb)) (ix2 p k)
      = ∑ q : Fin 2048, bilinearTerm (fun i => x0 (ix3 p (0 : Fin 2) i)) (fun j => x0 (ix3 p (1 : Fin 2) j)) (fun r => x1 (ix2 r k)) (2048 * c + q.val) := by
  subst ho hR
  unfold chunk
  refine (chunk_apply (16 * c) (by omega) hs _ _ _ _ _ _ _ _ _ _ p k).trans ?_
  refine Finset.sum_congr rfl fun q _ => ?_
  rw [ld_weights (2048 * c) (by omega) inb x1 q k, row0_at, row1_at]
  exact chunk_term c hc (fun i => x0 (ix3 p (0 : Fin 2) i)) (fun j => x0 (ix3 p (1 : Fin 2) j)) (fun r => x1 (ix2 r k)) q

/-- A linear gate of the body at `(p, k)`, over the first row. -/
theorem linear0_at (x0 : Vec Ideal S512x2x128 .f32) (x2 : Vec Ideal S128x384 .bf16) (p : Fin 512) (k : Fin 384) :
    linear (k0_pay4 (View.ld x0 r0_0)) (View.ld x2 r0_10) (ix2 p k) = ∑ j : Fin 128, x0 (ix3 p (0 : Fin 2) j) * x2 (ix2 j k) := by
  unfold linear
  refine (linear_apply _ _ _ p k).trans ?_
  refine Finset.sum_congr rfl fun j _ => ?_
  unfold k0_pay4
  rw [truncf_apply, row0_at, View.ld_unit_zero (S := S128x384) (funext fun a => by fin_cases a <;> rfl)]

/-- The other linear gate, over the second row. -/
theorem linear1_at (x0 : Vec Ideal S512x2x128 .f32) (x3 : Vec Ideal S128x384 .bf16) (p : Fin 512) (k : Fin 384) :
    linear (k0_pay5 (View.ld x0 r0_1)) (View.ld x3 r0_10) (ix2 p k) = ∑ j : Fin 128, x0 (ix3 p (1 : Fin 2) j) * x3 (ix2 j k) := by
  unfold linear
  refine (linear_apply _ _ _ p k).trans ?_
  refine Finset.sum_congr rfl fun j _ => ?_
  unfold k0_pay5
  rw [truncf_apply, row1_at, View.ld_unit_zero (S := S128x384) (funext fun a => by fin_cases a <;> rfl)]

/-- The bias at `(p, k)`. -/
theorem bias_at (x4 : Vec Ideal S1x384 .f32) (p : Fin 512) (k : Fin 384) :
    biasRows (View.ld x4 r0_11) (ix2 p k) = x4 (ix2 (0 : Fin 1) k) := by
  unfold biasRows
  refine (bias_apply _ _ _ p k).trans ?_
  rw [View.ld_unit_zero (S := S1x384) (funext fun a => by fin_cases a <;> rfl)]

/-! ## The body's stored value at a block index -/

open Cert.BilinearGate in
/-- What the body stores at row `p`, column `k` of its output block, from its five input blocks: the long contraction of
    the flattened outer product of the block's two rows at `p` against the flat weights — the eight chunk sums put
    back together —, plus the two linear gates, plus the bias. -/
theorem body_at (x0 : Vec Ideal S512x2x128 .f32) (x1 : Vec Ideal S16384x384 .bf16) (x2 x3 : Vec Ideal S128x384 .bf16)
    (x4 : Vec Ideal S1x384 .f32) (p : Fin 512) (k : Fin 384) :
    out0_5 (F := Ideal) x0 x1 x2 x3 x4 (ix2 p k)
      = ((∑ r : Fin 16384, bilinearTerm (fun i => x0 (ix3 p (0 : Fin 2) i)) (fun j => x0 (ix3 p (1 : Fin 2) j)) (fun r => x1 (ix2 r k)) r.val
          + ∑ j : Fin 128, x0 (ix3 p (0 : Fin 2) j) * x2 (ix2 j k))
          + ∑ j : Fin 128, x0 (ix3 p (1 : Fin 2) j) * x3 (ix2 j k))
        + x4 (ix2 (0 : Fin 1) k) := by
  unfold out0_5
  rw [View.canon_unit_zero (funext fun a => by fin_cases a <;> rfl)]
  rw [pay1_eq, pay7_eq, pay6_eq]
  simp only [addf_apply, broadcast_apply]
  rw [chunk_at 0 0 0 (by decide) rfl rfl slices_S512x128_o0_0_S512x16 inb_S16384x384_S2048x384_0_0 x0 x1 p k,
    chunk_at 1 16 2048 (by decide) rfl rfl slices_S512x128_o0_16_S512x16 inb_S16384x384_S2048x384_2048_0 x0 x1 p k,
    chunk_at 2 32 4096 (by decide) rfl rfl slices_S512x128_o0_32_S512x16 inb_S16384x384_S2048x384_4096_0 x0 x1 p k,
    chunk_at 3 48 6144 (by decide) rfl rfl slices_S512x128_o0_48_S512x16 inb_S16384x384_S2048x384_6144_0 x0 x1 p k,
    chunk_at 4 64 8192 (by decide) rfl rfl slices_S512x128_o0_64_S512x16 inb_S16384x384_S2048x384_8192_0 x0 x1 p k,
    chunk_at 5 80 10240 (by decide) rfl rfl slices_S512x128_o0_80_S512x16 inb_S16384x384_S2048x384_10240_0 x0 x1 p k,
    chunk_at 6 96 12288 (by decide) rfl rfl slices_S512x128_o0_96_S512x16 inb_S16384x384_S2048x384_12288_0 x0 x1 p k,
    chunk_at 7 112 14336 (by decide) rfl rfl slices_S512x128_o0_112_S512x16 inb_S16384x384_S2048x384_14336_0 x0 x1 p k,
    linear0_at, linear1_at, bias_at]
  rw [← eight_blocks 2048 16384 rfl]
  show _ = _
  rw [show (Scalar.ofBits (F := Ideal) .f32 0x00000000#32 : EReal) = 0 from Ideal.ofBits_zero_f32]

end Cert.KernelIdeal.GateBody

end
-- ==== Proof.KernelValue.lean ====
/-
  The kernel's output array as one function of its argument arrays.

  The grid has 32 points; point `t` works on nodes `512 t … 512 t + 511`: its row block is that band of the neighbour
  array, its output block the same band of the output array, and its other blocks are whole arrays the host prepared
  before the region — the weight array re-laid flat as `[128 * 128, 384]`, the two gate weights transposed, the bias as
  one row (each also converted to a narrower float format, the identity on the extended reals). So what point `t` writes
  back is block `t` of the gate of those arrays (`Cert.KernelIdeal.GateBody.body_at` at node `512 t + p`); the 32 bands
  cover the output array (node `n` lies in band `n / 512`), hence the array ends holding the gate everywhere.
-/
import proofs.«163197_j75453985456646_2_alg».proof.Proof.Gen.KernelIdeal.Value
import proofs.«163197_j75453985456646_2_alg».proof.Proof.KernelBody
import proofs.«163197_j75453985456646_2_alg».proof.Proof.BilinearSpec
import Idealize.ShloMosaic.Lib.StableHlo.Run
import Idealize.ShloMosaic.Lib.ValueLayout

noncomputable section

namespace Cert.KernelIdeal.GateValue

open Cert.KernelIdeal Cert.KernelIdeal.Gen Cert.KernelIdeal.GateBody Cert.BilinearGate
open Idealize.ShloMosaic Idealize.ShloMosaic.TcCoe Idealize.SL.Sem Idealize.ShloMosaic.ValueIdx
open Idealize.ShloMosaic.Pipeline (Dat)

/-- Block `T` of the gate: if the body's row block is rows `512 T … 512 T + 511` of the neighbour array and its other
    blocks are the whole weight arrays and the bias row, then what it stores at `(p, k)` is the gate at node
    `512 T + p`, column `k`. -/
theorem block_gate (T : ℕ) (hT : T < 32)
    (X0 : S16384x2x128.Idx → EReal) (X1 : S16384x384.Idx → EReal) (X2 X3 : S128x384.Idx → EReal) (b : S384.Idx → EReal)
    (x0 : Vec Ideal S512x2x128 .f32) (x1 : Vec Ideal S16384x384 .bf16) (x2 x3 : Vec Ideal S128x384 .bf16) (x4 : Vec Ideal S1x384 .f32)
    (h0 : ∀ (p : Fin 512) (s : Fin 2) (j : Fin 128), x0 (ix3 p s j) = X0 (ix3 (⟨512 * T + p.val, by have := p.isLt; omega⟩ : Fin 16384) s j))
    (h1 : ∀ (r : Fin 16384) (k : Fin 384), x1 (ix2 r k) = X1 (ix2 r k))
    (h2 : ∀ (j : Fin 128) (k : Fin 384), x2 (ix2 j k) = X2 (ix2 j k))
    (h3 : ∀ (j : Fin 128) (k : Fin 384), x3 (ix2 j k) = X3 (ix2 j k))
    (h4 : ∀ k : Fin 384, x4 (ix2 (0 : Fin 1) k) = b (ix1 k))
    (p : Fin 512) (k : Fin 384) :
    out0_5 (F := Ideal) x0 x1 x2 x3 x4 (ix2 p k)
      = gateAt X0 X1 X2 X3 b (⟨512 * T + p.val, by have := p.isLt; omega⟩ : Fin 16384) k := by
  rw [body_at]
  unfold gateAt
  simp only [h0, h1, h2, h3, h4]

variable (m : (ℓ : Loc nD τ sig) → Buf (Elt Ideal) ℓ) (ρ : Dev nD → PrngReg)

/-- The printed index maps, decided over the 32 grid points: the row block and the output block sit at block index `t`
    along the nodes, every other window at block zero. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 32 := Nat.lt_of_lt_of_eq t.isLt N_0

/-- The row block at point `t` is rows `512 t … 512 t + 511` of the neighbour array. -/
theorem rows_read (c : Dev nD) (t : Fin cfg0.N) (p : Fin 512) (s : Fin 2) (j : Fin 128) :
    iblk m c 0 t (ix3 p s j)
      = V m c main_arg0 (ix3 (⟨512 * t.val + p.val, by have := point_lt t; have := p.isLt; omega⟩ : Fin 16384) s j) := by
  obtain ⟨e0, e1, e2, -⟩ := idx_facts t
  show V m c main_arg0 (((cfg0.win 0).blk t).view.emb (ix3 p s j)) = _
  refine congrArg (V m c main_arg0) (funext fun a => Fin.ext ?_)
  match a with
  | ⟨0, _⟩ => show win0_0.index t (0 : Fin 3) * 512 + 1 * p.val = 512 * t.val + p.val; omega
  | ⟨1, _⟩ => show win0_0.index t (1 : Fin 3) * 2 + 1 * s.val = s.val; omega
  | ⟨2, _⟩ => show win0_0.index t (2 : Fin 3) * 128 + 1 * j.val = j.val; omega

/-- The flat weights' block at every point is the whole array. -/
theorem weights_read (c : Dev nD) (t : Fin cfg0.N) (r : Fin 16384) (k : Fin 384) :
    iblk m c 1 t (ix2 r k) = V m c main_v1 (ix2 r k) := by
  obtain ⟨-, -, -, e0, e1, -⟩ := idx_facts t
  show V m c main_v1 (((cfg0.win 1).blk t).view.emb (ix2 r k)) = _
  refine congrArg (V m c main_v1) (funext fun a => Fin.ext ?_)
  match a with
  | ⟨0, _⟩ => show win0_1.index t (0 : Fin 2) * 16384 + 1 * r.val = r.val; omega
  | ⟨1, _⟩ => show win0_1.index t (1 : Fin 2) * 384 + 1 * k.val = k.val; omega

theorem gate1_read (c : Dev nD) (t : Fin cfg0.N) (j : Fin 128) (k : Fin 384) :
    iblk m c 2 t (ix2 j k) = V m c main_v3 (ix2 j k) := by
  obtain ⟨-, -, -, -, -, e0, e1, -⟩ := idx_facts t
  show V m c main_v3 (((cfg0.win 2).blk t).view.emb (ix2 j k)) = _
  refine congrArg (V m c main_v3) (funext fun a => Fin.ext ?_)
  match a with
  | ⟨0, _⟩ => show win0_2.index t (0 : Fin 2) * 128 + 1 * j.val = j.val; omega
  | ⟨1, _⟩ => show win0_2.index t (1 : Fin 2) * 384 + 1 * k.val = k.val; omega

theorem gate2_read (c : Dev nD) (t : Fin cfg0.N) (j : Fin 128) (k : Fin 384) :
    iblk m c 3 t (ix2 j k) = V m c main_v5 (ix2 j k) := by
  obtain ⟨-, -, -, -, -, -, -, e0, e1, -⟩ := idx_facts t
  show V m c main_v5 (((cfg0.win 3).blk t).view.emb (ix2 j k)) = _
  refine congrArg (V m c main_v5) (funext fun a => Fin.ext ?_)
  match a with
  | ⟨0, _⟩ => show win0_3.index t (0 : Fin 2) * 128 + 1 * j.val = j.val; omega
  | ⟨1, _⟩ => show win0_3.index t (1 : Fin 2) * 384 + 1 * k.val = k.val; omega

theorem bias_read (c : Dev nD) (t : Fin cfg0.N) (u : Fin 1) (k : Fin 384) :
    iblk m c 4 t (ix2 u k) = V m c main_v6 (ix2 u k) := by
  obtain ⟨-, -, -, -, -, -, -, -, -, e0, e1, -⟩ := idx_facts t
  show V m c main_v6 (((cfg0.win 4).blk t).view.emb (ix2 u k)) = _
  refine congrArg (V m c main_v6) (funext fun a => Fin.ext ?_)
  match a with
  | ⟨0, _⟩ => show win0_4.index t (0 : Fin 2) * 1 + 1 * u.val = u.val; omega
  | ⟨1, _⟩ => show win0_4.index t (1 : Fin 2) * 384 + 1 * k.val = k.val; omega

/-- Entry `(p, k)` of the output block at point `t` is entry `(512 t + p, k)` of the output array. -/
theorem out_emb (t : Fin cfg0.N) (p : Fin 512) (k : Fin 384) :
    ((cfg0.win 5).blk t).view.emb (ix2 p k)
      = ix2 (⟨512 * t.val + p.val, by have := point_lt t; have := p.isLt; omega⟩ : Fin 16384) k := by
  obtain ⟨-, -, -, -, -, -, -, -, -, -, -, e0, e1⟩ := idx_facts t
  funext a; apply Fin.ext
  match a with
  | ⟨0, _⟩ => show win0_5.index t (0 : Fin 2) * 512 + 1 * p.val = 512 * t.val + p.val; omega
  | ⟨1, _⟩ => show win0_5.index t (1 : Fin 2) * 384 + 1 * k.val = k.val; omega

/-- At grid point `t` the kernel writes back band `t` of the gate of the arrays as the region finds them: rows
    `512 t … 512 t + 511` of the output, each entry the gate at that node and column. -/
theorem flushed_eq (c : Dev nD) (t : Fin cfg0.N) :
    (dats m 0 c).flushed 5 t = ((cfg0.win 5).blk t).view.read (Elt Ideal)
      (gate (V m c main_arg0) (V m c main_v1) (V m c main_v3) (V m c main_v5) (fun i => V m c main_v6 (ix2 (0 : Fin 1) (i 0)))) := by
  rw [Value.flushed5]
  funext y
  obtain ⟨p, k, rfl⟩ : ∃ (p : Fin 512) (k : Fin 384), y = ix2 p k := ⟨y 0, y 1, eq_ix2 y⟩
  show out0_5 (iblk m c 0 t) (iblk m c 1 t) (iblk m c 2 t) (iblk m c 3 t) (iblk m c 4 t) (ix2 p k)
    = gate (V m c main_arg0) (V m c main_v1) (V m c main_v3) (V m c main_v5) (fun i => V m c main_v6 (ix2 (0 : Fin 1) (i 0))) (((cfg0.win 5).blk t).view.emb (ix2 p k))
  rw [out_emb t p k, gate_ix2]
  exact block_gate t.val (point_lt t) _ _ _ _ _ _ _ _ _ _ (rows_read m c t) (weights_read m c t) (gate1_read m c t) (gate2_read m c t)
    (fun k => bias_read m c t 0 k) p k

/-! ## The arrays the region finds, as terms of the launch contents -/

/-- The flat weights: the weight array re-laid as `[128 * 128, 384]` (the change of float format is the identity). -/
theorem weights_entry (c : Dev nD) : (V m c main_v1 : S16384x384.Idx → EReal)
    = shapeCast S16384x384 (m ((c : Thread nD τ).loc main_arg1)) shapeCasts_S128x128x384_S16384x384 := by
  dsimp only [V, hostOps0]; after_results; rfl

/-- The first gate's weights, transposed. -/
theorem gate1_entry (c : Dev nD) : (V m c main_v3 : S128x384.Idx → EReal)
    = transpose S128x384 [1, 0] (m ((c : Thread nD τ).loc main_arg2)) transposes_S384x128_S128x384_1_0 := by
  dsimp only [V, hostOps0]; after_results; rfl

/-- The second gate's weights, transposed. -/
theorem gate2_entry (c : Dev nD) : (V m c main_v5 : S128x384.Idx → EReal)
    = transpose S128x384 [1, 0] (m ((c : Thread nD τ).loc main_arg3)) transposes_S384x128_S128x384_1_0 := by
  dsimp only [V, hostOps0]; after_results; rfl

/-- The bias as a one-row array. -/
theorem bias_entry (c : Dev nD) : (V m c main_v6 : S1x384.Idx → EReal)
    = shapeCast S1x384 (m ((c : Thread nD τ).loc main_arg4)) shapeCasts_S384_S1x384 := by
  dsimp only [V, hostOps0]; after_results; rfl

/-- Reading the one-row bias array at its row is reading the bias. -/
theorem bias_fn (c : Dev nD) : (fun i : S384.Idx => (V m c main_v6 : S1x384.Idx → EReal) (ix2 (0 : Fin 1) (i 0)))
    = m ((c : Thread nD τ).loc main_arg4) := by
  funext i
  rw [bias_entry]
  obtain ⟨k, rfl⟩ : ∃ k : Fin 384, i = ix1 k := ⟨i 0, eq_ix1 i⟩
  exact shapeCast_a_1a_apply _ shapeCasts_S384_S1x384 0 k

/-! ## From the blocks to the array -/

/-- Every band of 512 nodes is some point's output block. -/
theorem idx_onto : ∀ q : Fin 32, ∃ t : Fin cfg0.N, win0_5.index t = ![q.val, 0] :=
  (by decide +kernel : ∀ q : Fin 32, ∃ t : Fin grid0.N, win0_5.index t = ![q.val, 0])

/-- An index of the output array is in point `t`'s block iff each coordinate is in the block's range on its axis. -/
theorem mem_blk (t : Fin cfg0.N) (i : S16384x384.Idx) :
    i ∈ ((cfg0.win 5).blk t).view.set ↔ ∀ a : Fin 2, win0_5.index t a * S512x384.size a ≤ (i a).val ∧ (i a).val < win0_5.index t a * S512x384.size a + S512x384.size a := by
  show i ∈ ((View.whole main_v7).slice (win0_5.rect t)).set ↔ _
  rw [View.set_slice_whole, Rect.mem_set_unit]
  exact Iff.rfl

/-- The 32 output blocks cover the output array: node `n` is in the block of point `n / 512`. -/
theorem cover (i : S16384x384.Idx) : ∃ t : Fin cfg0.N, (cfg0.win 5).flush t = true ∧ i ∈ ((cfg0.win 5).blk t).view.set := by
  have hi0 : (i 0).val < 16384 := (i 0).isLt
  have hi1 : (i 1).val < 384 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 384 ≤ (i 1).val ∧ (i 1).val < win0_5.index t (1 : Fin 2) * 384 + 384; omega

/-- After the run the output array holds the gate of the argument arrays at every entry: each band is what its point
    wrote, and the bands cover the array. -/
theorem final (c : Dev nD) : (dats m 0 c).arrAt 5 cfg0.N
    = gate (m ((c : Thread nD τ).loc main_arg0))
        (shapeCast S16384x384 (m ((c : Thread nD τ).loc main_arg1)) shapeCasts_S128x128x384_S16384x384)
        (transpose S128x384 [1, 0] (m ((c : Thread nD τ).loc main_arg2)) transposes_S384x128_S128x384_1_0)
        (transpose S128x384 [1, 0] (m ((c : Thread nD τ).loc main_arg3)) transposes_S384x128_S128x384_1_0)
        (m ((c : Thread nD τ).loc main_arg4)) := by
  rw [(dats m 0 c).arrAt_eq_of_cover 5 _ (fun t _ => flushed_eq m c t) (fun i => cover i)]
  rw [V_main_arg0, weights_entry, gate1_entry, gate2_entry, bias_fn]

/-- The kernel's run: every weakly fair execution ends with the output array at the gate of the argument arrays and the
    arguments unchanged. -/
theorem run : θ_run defs (onTc (τ := τ) (main (F := Ideal))) ⟨m, fun _ => 0, ρ⟩ fun r => ∀ c : Dev nD,
      r.2.mem ((c : Thread nD τ).loc main_v7)
        = gate (m ((c : Thread nD τ).loc main_arg0))
            (shapeCast S16384x384 (m ((c : Thread nD τ).loc main_arg1)) shapeCasts_S128x128x384_S16384x384)
            (transpose S128x384 [1, 0] (m ((c : Thread nD τ).loc main_arg2)) transposes_S384x128_S128x384_1_0)
            (transpose S128x384 [1, 0] (m ((c : Thread nD τ).loc main_arg3)) transposes_S384x128_S128x384_1_0)
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.GateValue

end
-- ==== Proof.ReferenceGate.lean ====
/-
  The reference's result as the gate of its argument arrays.

  The reference slices the two neighbour rows `h1 = x (n, 0, ·)` and `h2 = x (n, 1, ·)` of every node, forms their outer
  product `h1 i · h2 j` as a `[16384, 128, 128]` array, lays it out flat — entry `(i, j)` at position `128 i + j`, so that
  position `r` holds `h1 (r / 128) · h2 (r % 128)` —, and contracts the 16384 positions in one piece against the weight
  array re-laid flat as `[128 * 128, 384]`; it then adds the two linear gates (rows against the transposed gate weights)
  and the bias, in this order. Read index by index, that is `Cert.BilinearGate.gate` of the arguments, with the flat
  weights and the two transposed gate weights kept as the arrays the reference itself forms.
-/
import proofs.«163197_j75453985456646_2_alg».proof.Proof.Gen.ReferenceIdeal.Read
import proofs.«163197_j75453985456646_2_alg».proof.Proof.BilinearSpec

noncomputable section

namespace Cert.ReferenceIdeal.GateRef

open Cert.ReferenceIdeal Cert.ReferenceIdeal.Gen Cert.ReferenceIdeal.Read Cert.BilinearGate
open Idealize.ShloMosaic Idealize.ShloMosaic.ValueIdx

/-- The first neighbour row as the reference slices it: entry `(n, j)` is the argument at `(n, 0, j)`. -/
theorem row0_at (x0 : (⟨S16384x2x128, .f32⟩ : BufTy).Contents (Elt Ideal)) (n : Fin 16384) (j : Fin 128) (y : S16384x128.Idx)
    (h0 : (y 0).val = n.val) (h1 : (y 1).val = j.val) :
    val_main_v1 (F := Ideal) x0 y = x0 (ix3 n (0 : Fin 2) j) := by
  rw [val_main_v1_apply, val_main_v0_apply]
  refine congrArg x0 (funext fun a => Fin.ext ?_)
  have hn : n.val < 16384 := n.isLt
  have hj : j.val < 128 := j.isLt
  match a with
  | ⟨0, _⟩ => show ((y 0).val * 128 + (y 1).val) / 128 = n.val; omega
  | ⟨1, _⟩ => show (0 : ℕ) = 0; rfl
  | ⟨2, _⟩ => show ((y 0).val * 128 + (y 1).val) % 128 = j.val; omega

/-- The second neighbour row: entry `(n, j)` is the argument at `(n, 1, j)`. -/
theorem row1_at (x0 : (⟨S16384x2x128, .f32⟩ : BufTy).Contents (Elt Ideal)) (n : Fin 16384) (j : Fin 128) (y : S16384x128.Idx)
    (h0 : (y 0).val = n.val) (h1 : (y 1).val = j.val) :
    val_main_v3 (F := Ideal) x0 y = x0 (ix3 n (1 : Fin 2) j) := by
  rw [val_main_v3_apply, val_main_v2_apply]
  refine congrArg x0 (funext fun a => Fin.ext ?_)
  have hn : n.val < 16384 := n.isLt
  have hj : j.val < 128 := j.isLt
  match a with
  | ⟨0, _⟩ => show ((y 0).val * 128 + (y 1).val) / 128 = n.val; omega
  | ⟨1, _⟩ => show 1 + 0 = 1; rfl
  | ⟨2, _⟩ => show ((y 0).val * 128 + (y 1).val) % 128 = j.val; omega

/-- Entry `(n, r)` of the flattened outer product of the two rows of node `n`. -/
theorem outer_at (x0 : (⟨S16384x2x128, .f32⟩ : BufTy).Contents (Elt Ideal)) (n : Fin 16384) (r : Fin 16384) (y : S16384x16384.Idx)
    (h0 : (y 0).val = n.val) (h1 : (y 1).val = r.val) :
    val_main_v9 (F := Ideal) x0 y
      = x0 (ix3 n (0 : Fin 2) (⟨r.val / 128 % 128, Nat.mod_lt _ (by decide)⟩ : Fin 128))
        * x0 (ix3 n (1 : Fin 2) (⟨r.val % 128, Nat.mod_lt _ (by decide)⟩ : Fin 128)) := by
  have hn : n.val < 16384 := n.isLt
  have hr : r.val < 16384 := r.isLt
  rw [val_main_v9_apply, val_main_v8_apply, val_main_v6_apply, val_main_v4_apply, val_main_v7_apply, val_main_v5_apply]
  show val_main_v1 (F := Ideal) x0 _ * val_main_v3 (F := Ideal) x0 _ = _
  rw [row0_at x0 n ⟨r.val / 128 % 128, Nat.mod_lt _ (by decide)⟩ _
        (by show ((y 0).val * 16384 + (y 1).val) / 16384 = n.val; omega)
        (by show ((y 0).val * 16384 + (y 1).val) / 128 % 128 = r.val / 128 % 128; omega),
      row1_at x0 n ⟨r.val % 128, Nat.mod_lt _ (by decide)⟩ _
        (by show ((y 0).val * 16384 + (y 1).val) / 16384 = n.val; omega)
        (by show ((y 0).val * 16384 + (y 1).val) % 128 = r.val % 128; omega)]

/-- The reference's result is the gate of its argument arrays: one long contraction of the flattened outer product of
    the two neighbour rows against the flat weights, the two linear gates against the transposed weights, and the bias,
    added in the same order. -/
theorem result_eq (x0 : (⟨S16384x2x128, .f32⟩ : BufTy).Contents (Elt Ideal)) (x1 : (⟨S128x128x384, .f32⟩ : BufTy).Contents (Elt Ideal))
    (x2 x3 : (⟨S384x128, .f32⟩ : BufTy).Contents (Elt Ideal)) (x4 : (⟨S384, .f32⟩ : BufTy).Contents (Elt Ideal)) :
    val_main_v20 (F := Ideal) x0 x1 x2 x3 x4
      = gate x0 (shapeCast S16384x384 x1 shapeCasts_S128x128x384_S16384x384)
          (transpose S128x384 [1, 0] x2 transposes_S384x128_S128x384_1_0)
          (transpose S128x384 [1, 0] x3 transposes_S384x128_S128x384_1_0) x4 := by
  funext i
  obtain ⟨n, k, rfl⟩ : ∃ (n : Fin 16384) (k : Fin 384), i = ix2 n k := ⟨i 0, i 1, eq_ix2 i⟩
  rw [gate_ix2]
  unfold gateAt
  rw [val_main_v20_apply, val_main_v17_apply, val_main_v14_apply, val_main_v11_apply, val_main_v13_apply, val_main_v16_apply,
    val_main_v19_apply, val_main_v18_apply]
  show ((∑ r : Fin 16384, _) + (∑ j : Fin 128, _)) + (∑ j : Fin 128, _) + _ = _
  refine congrArg₂ (· + ·) (congrArg₂ (· + ·) (congrArg₂ (· + ·) ?_ ?_) ?_) ?_
  · refine Finset.sum_congr rfl fun r _ => ?_
    have hr : r.val < 16384 := r.isLt
    rw [outer_at x0 n r _ rfl rfl]
    unfold bilinearTerm
    refine congrArg₂ (· * ·) rfl ?_
    show shapeCast S16384x384 x1 shapeCasts_S128x128x384_S16384x384 (ridx_main_v11 (ix2 n k) r) = _
    refine congrArg _ (funext fun a => Fin.ext ?_)
    match a with
    | ⟨0, _⟩ => show r.val = r.val % 16384; omega
    | ⟨1, _⟩ => rfl
  · refine Finset.sum_congr rfl fun j _ => ?_
    rw [row0_at x0 n j _ rfl rfl]
    refine congrArg₂ (· * ·) rfl ?_
    show transpose S128x384 [1, 0] x2 transposes_S384x128_S128x384_1_0 (ridx_main_v13 (ix2 n k) j) = _
    exact congrArg _ (funext fun a => Fin.ext (by match a with | ⟨0, _⟩ => rfl | ⟨1, _⟩ => rfl))
  · refine Finset.sum_congr rfl fun j _ => ?_
    rw [row1_at x0 n j _ rfl rfl]
    refine congrArg₂ (· * ·) rfl ?_
    show transpose S128x384 [1, 0] x3 transposes_S384x128_S128x384_1_0 (ridx_main_v16 (ix2 n k) j) = _
    exact congrArg _ (funext fun a => Fin.ext (by match a with | ⟨0, _⟩ => rfl | ⟨1, _⟩ => rfl))
  · exact congrArg x4 (funext fun a => Fin.ext (by match a with | ⟨0, _⟩ => rfl))

end Cert.ReferenceIdeal.GateRef

end
-- ==== Proof.lean ====
/-
  The bilinear gate of a pair of neighbour rows: for every node `n` with rows `h1 = x (n, 0, ·)`, `h2 = x (n, 1, ·)` and every
  output column `k`,

      out (n, k) = ((Σ_{i, j} (h1 i · h2 j) · A (i, j, k)  +  Σ_i h1 i · U1 (k, i))  +  Σ_j h2 j · U2 (k, j))  +  b k.

  The reference contracts the flattened outer product of the two rows against the flattened weights in one piece of
  16384 terms. The kernel works on bands of 512 nodes and cuts the same contraction into eight consecutive blocks of
  2048 terms (sixteen entries of `h1` against all of `h2`), adding the block sums one after the other onto a zero. The two
  results agree on the extended reals, entry by entry, by commutativity and associativity of addition alone: no product
  is regrouped and no factor is moved across a sum, so the finiteness of the inputs is never used. Changes of float
  format are the identity at this instance, and both programs form the flat weights and the transposed gate weights by
  the same operations, so those arrays are carried as they are.

  `Proof/BilinearSpec.lean` states the gate and the law that joins the two arrangements; `Proof/KernelBody.lean` reads what
  the kernel's body stores at an index of its output block; `Proof/KernelValue.lean` puts the 32 blocks together into the
  whole output array; `Proof/ReferenceGate.lean` reads the reference's result index by index. The kernel's idealization
  rewrote no operation, so that conjunct is trivial; the three frames are the programs' runs.
-/
import proofs.«163197_j75453985456646_2_alg».proof.Defs
import proofs.«163197_j75453985456646_2_alg».proof.Proof.Gen.Kernel
import proofs.«163197_j75453985456646_2_alg».proof.Proof.Gen.Kernel.Skeleton
import proofs.«163197_j75453985456646_2_alg».proof.Proof.Gen.Kernel.Launch
import proofs.«163197_j75453985456646_2_alg».proof.Proof.Gen.Kernel.Points
import proofs.«163197_j75453985456646_2_alg».proof.Proof.Gen.Kernel.Frame
import proofs.«163197_j75453985456646_2_alg».proof.Proof.Gen.KernelIdeal
import proofs.«163197_j75453985456646_2_alg».proof.Proof.Gen.KernelIdeal.Skeleton
import proofs.«163197_j75453985456646_2_alg».proof.Proof.Gen.KernelIdeal.Launch
import proofs.«163197_j75453985456646_2_alg».proof.Proof.Gen.KernelIdeal.Points
import proofs.«163197_j75453985456646_2_alg».proof.Proof.Gen.KernelIdeal.Frame
import proofs.«163197_j75453985456646_2_alg».proof.Proof.Gen.ReferenceIdeal
import proofs.«163197_j75453985456646_2_alg».proof.Proof.Gen.KernelIdeal.Value
import proofs.«163197_j75453985456646_2_alg».proof.Proof.Gen.ReferenceIdeal.Run
import proofs.«163197_j75453985456646_2_alg».proof.Proof.Gen.ReferenceIdeal.Read
import proofs.«163197_j75453985456646_2_alg».proof.Proof.Gen.Pre_finite_inputs
import proofs.«163197_j75453985456646_2_alg».proof.Proof.KernelValue
import proofs.«163197_j75453985456646_2_alg».proof.Proof.ReferenceGate
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, the kernel's output array and the reference's result both end at the gate
    of those arguments: one function, so they are equal entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.GateRef.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
